-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x1024x64 : Shape := ⟨4, ![8, 8, 1024, 64]⟩
abbrev S64x64 : Shape := ⟨2, ![64, 64]⟩
abbrev S64 : Shape := ⟨1, ![64]⟩
abbrev S_ : Shape := ⟨0, ![]⟩

class Facts : Prop where
  bcast_S_S8x8x1024x64 : S_.BroadcastsInDim S8x8x1024x64 (![] : Fin 0 → Fin S8x8x1024x64.rank)
  reducesTo_S8x8x1024x64_S_d0_1_2_3 : S8x8x1024x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S8x8x1024x64 .f32) (main_arg1 : FVec F S8x8x1024x64 .f32) (main_arg2 : FVec F S8x8x1024x64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S8x8x1024x64 .f32 := Host.absf main_arg0
  let main_cst : FVec F S_ .f32 := constant S_ .f32 0x7F800000#32
  let main_v1 : FVec F S8x8x1024x64 .f32 := broadcastInDim S8x8x1024x64 ![] bcast_S_S8x8x1024x64 main_cst
  let main_v2 : IVec S8x8x1024x64 1 := cmpf .olt main_v0 main_v1
  let main_c : IVec S_ 1 := constantI S_ 1 1#1
  let main_v3 : IVec S_ 1 := (fun x v => Host.reduce IntOp.andi x v reducesTo_S8x8x1024x64_S_d0_1_2_3 h_S_) main_v2 main_c
  let main_v4 : FVec F S8x8x1024x64 .f32 := Host.absf main_arg1
  let main_cst_0 : FVec F S_ .f32 := constant S_ .f32 0x7F800000#32
  let main_v5 : FVec F S8x8x1024x64 .f32 := broadcastInDim S8x8x1024x64 ![] bcast_S_S8x8x1024x64 main_cst_0
  let main_v6 : IVec S8x8x1024x64 1 := cmpf .olt main_v4 main_v5
  let main_c_1 : IVec S_ 1 := constantI S_ 1 1#1
  let main_v7 : IVec S_ 1 := (fun x v => Host.reduce IntOp.andi x v reducesTo_S8x8x1024x64_S_d0_1_2_3 h_S_) main_v6 main_c_1
  let main_v8 : IVec S_ 1 := andi main_v3 main_v7
  let main_v9 : FVec F S8x8x1024x64 .f32 := Host.absf main_arg2
  let main_cst_2 : FVec F S_ .f32 := constant S_ .f32 0x7F800000#32
  let main_v10 : FVec F S8x8x1024x64 .f32 := broadcastInDim S8x8x1024x64 ![] bcast_S_S8x8x1024x64 main_cst_2
  let main_v11 : IVec S8x8x1024x64 1 := cmpf .olt main_v9 main_v10
  let main_c_3 : IVec S_ 1 := constantI S_ 1 1#1
  let main_v12 : IVec S_ 1 := (fun x v => Host.reduce IntOp.andi x v reducesTo_S8x8x1024x64_S_d0_1_2_3 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S8x8x1024x64 : Shape := ⟨4, ![8, 8, 1024, 64]⟩
abbrev S64x64 : Shape := ⟨2, ![64, 64]⟩
abbrev S64 : Shape := ⟨1, ![64]⟩
abbrev S1x1x1024x64 : Shape := ⟨4, ![1, 1, 1024, 64]⟩
abbrev S1024x64 : Shape := ⟨2, ![1024, 64]⟩
abbrev S1x64 : Shape := ⟨2, ![1, 64]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S8x8x64x1024 : Shape := ⟨4, ![8, 8, 64, 1024]⟩

abbrev nBuf : Space → Nat
  | .hbm => 16
  | .vmem => 14
  | .smem => 0
  | _ => 0

abbrev bufTy : (tb : Table) → Fin (tcTables nBuf tb) → BufTy
  | .hbm, ⟨0, _⟩ => ⟨S8x8x1024x64, .f32⟩
  | .hbm, ⟨1, _⟩ => ⟨S8x8x1024x64, .f32⟩
  | .hbm, ⟨2, _⟩ => ⟨S8x8x1024x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S8x8x1024x64, .f32⟩
  | .hbm, ⟨13, _⟩ => ⟨S8x8x64x1024, .f32⟩
  | .hbm, ⟨14, _⟩ => ⟨S8x8x1024x64, .f32⟩
  | .hbm, ⟨15, _⟩ => ⟨S8x8x1024x64, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S1x1x1024x64, .f32⟩
  | .local _ .vmem, ⟨13, _⟩ => ⟨S1x1x1024x64, .f32⟩
  | _, _ => ⟨S8x8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  transposes_S64x64_S64x64_1_0 : S64x64.Transposes [1, 0] S64x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1x1024x64 : S1024x64.ShapeCasts S1x1x1024x64
  transposes_S8x8x1024x64_S8x8x64x1024_0_1_3_2 : S8x8x1024x64.Transposes [0, 1, 3, 2] S8x8x64x1024
  shapeCasts_S8x8x64x1024_S8x8x1024x64 : S8x8x64x1024.ShapeCasts S8x8x1024x64
  dot_S1024x64_S64x64_S1024x64_1_0_0_1_n_n_wf : DotDims.WF S1024x64 S64x64 S1024x64 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S8x8x1024x64.size a
  hwx0_0 : ∀ i : grid0.Coords, EltTy.bits .f32 = 32 ∨ (Rect.block (s := S8x8x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S8x8x1024x64.size a
  hwx0_1 : ∀ i : grid0.Coords, EltTy.bits .f32 = 32 ∨ (Rect.block (s := S8x8x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S8x8x1024x64.size a
  hwx0_2 : ∀ i : grid0.Coords, EltTy.bits .f32 = 32 ∨ (Rect.block (s := S8x8x1024x64) S1x1x1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1024x64.size a ≤ S8x8x1024x64.size a
  hwx0_9 : ∀ i : grid0.Coords, EltTy.bits .f32 = 32 ∨ (Rect.block (s := S8x8x1024x64) S1x1x1024x64.size (cc0_transform_9 i) (hinb0_9 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x1x1024x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x8x1024x64 : Shape := ⟨4, ![8, 8, 1024, 64]⟩
abbrev S64x64 : Shape := ⟨2, ![64, 64]⟩
abbrev S64 : Shape := ⟨1, ![64]⟩
abbrev S1x1x1x64 : Shape := ⟨4, ![1, 1, 1, 64]⟩
abbrev S_ : Shape := ⟨0, ![]⟩
abbrev S8x8x1024x1024 : Shape := ⟨4, ![8, 8, 1024, 1024]⟩
abbrev S8x8x1024 : Shape := ⟨3, ![8, 8, 1024]⟩
abbrev S8x8x1024x1 : Shape := ⟨4, ![8, 8, 1024, 1]⟩
abbrev S8x8x64x1024 : Shape := ⟨4, ![8, 8, 64, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x8x1024x64, .f32⟩
  | .hbm, ⟨1, _⟩ => ⟨S8x8x1024x64, .f32⟩
  | .hbm, ⟨2, _⟩ => ⟨S8x8x1024x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S8x8x1024x64, .f32⟩
  | .hbm, ⟨10, _⟩ => ⟨S1x1x1x64, .f32⟩
  | .hbm, ⟨11, _⟩ => ⟨S8x8x1024x64, .f32⟩
  | .hbm, ⟨12, _⟩ => ⟨S8x8x1024x64, .f32⟩
  | .hbm, ⟨13, _⟩ => ⟨S_, .f32⟩
  | .hbm, ⟨14, _⟩ => ⟨S8x8x1024x64, .f32⟩
  | .hbm, ⟨15, _⟩ => ⟨S8x8x1024x64, .f32⟩
  | .hbm, ⟨16, _⟩ => ⟨S8x8x1024x64, .f32⟩
  | .hbm, ⟨17, _⟩ => ⟨S1x1x1x64, .f32⟩
  | .hbm, ⟨18, _⟩ => ⟨S8x8x1024x64, .f32⟩
  | .hbm, ⟨19, _⟩ => ⟨S8x8x1024x64, .f32⟩
  | .hbm, ⟨20, _⟩ => ⟨S_, .f32⟩
  | .hbm, ⟨21, _⟩ => ⟨S8x8x1024x64, .f32⟩
  | .hbm, ⟨22, _⟩ => ⟨S8x8x1024x64, .f32⟩
  | .hbm, ⟨23, _⟩ => ⟨S8x8x1024x64, .f32⟩
  | .hbm, ⟨24, _⟩ => ⟨S1x1x1x64, .f32⟩
  | .hbm, ⟨25, _⟩ => ⟨S8x8x1024x64, .f32⟩
  | .hbm, ⟨26, _⟩ => ⟨S8x8x1024x64, .f32⟩
  | .hbm, ⟨27, _⟩ => ⟨S_, .f32⟩
  | .hbm, ⟨28, _⟩ => ⟨S8x8x1024x64, .f32⟩
  | .hbm, ⟨29, _⟩ => ⟨S8x8x1024x64, .f32⟩
  | .hbm, ⟨30, _⟩ => ⟨S8x8x1024x1024, .f32⟩
  | .hbm, ⟨31, _⟩ => ⟨S_, .f32⟩
  | .hbm, ⟨32, _⟩ => ⟨S8x8x1024x1024, .f32⟩
  | .hbm, ⟨33, _⟩ => ⟨S8x8x1024x1024, .f32⟩
  | .hbm, ⟨34, _⟩ => ⟨S_, .f32⟩
  | .hbm, ⟨35, _⟩ => ⟨S8x8x1024, .f32⟩
  | .hbm, ⟨36, _⟩ => ⟨S_, .f32⟩
  | .hbm, ⟨37, _⟩ => ⟨S8x8x1024, .f32⟩
  | .hbm, ⟨38, _⟩ => ⟨S8x8x1024, .f32⟩
  | .hbm, ⟨39, _⟩ => ⟨S8x8x1024x1, .f32⟩
  | .hbm, ⟨40, _⟩ => ⟨S8x8x1024x1024, .f32⟩
  | .hbm, ⟨41, _⟩ => ⟨S8x8x1024x1024, .f32⟩
  | .hbm, ⟨42, _⟩ => ⟨S8x8x1024x1024, .f32⟩
  | .hbm, ⟨43, _⟩ => ⟨S_, .f32⟩
  | .hbm, ⟨44, _⟩ => ⟨S8x8x1024, .f32⟩
  | .hbm, ⟨45, _⟩ => ⟨S8x8x1024x1, .f32⟩
  | .hbm, ⟨46, _⟩ => ⟨S8x8x1024x1024, .f32⟩
  | .hbm, ⟨47, _⟩ => ⟨S8x8x1024x1024, .f32⟩
  | .hbm, ⟨48, _⟩ => ⟨S8x8x1024x64, .f32⟩
  | .hbm, ⟨49, _⟩ => ⟨S8x8x64x1024, .f32⟩
  | .hbm, ⟨50, _⟩ => ⟨S8x8x1024x64, .f32⟩
  | .hbm, ⟨51, _⟩ => ⟨S8x8x1024x64, .f32⟩
  | _, _ => ⟨S8x8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S8x8x1024x64_0_1_2_3 : S1x1x1x64.BroadcastsInDim S8x8x1024x64 (![0, 1, 2, 3] : Fin 4 → Fin S8x8x1024x64.rank)
  bcast_S_S8x8x1024x64 : S_.BroadcastsInDim S8x8x1024x64 (![] : Fin 0 → Fin S8x8x1024x64.rank)
  bcast_S_S8x8x1024x1024 : S_.BroadcastsInDim S8x8x1024x1024 (![] : Fin 0 → Fin S8x8x1024x1024.rank)
  reducesTo_S8x8x1024x1024_S8x8x1024_d3 : S8x8x1024x1024.ReducesTo [3] S8x8x1024
  h_S_ : 0 < S_.numel
  bcast_S_S8x8x1024 : S_.BroadcastsInDim S8x8x1024 (![] : Fin 0 → Fin S8x8x1024.rank)
  bcast_S8x8x1024_S8x8x1024x1_0_1_2 : S8x8x1024.BroadcastsInDim S8x8x1024x1 (![0, 1, 2] : Fin 3 → Fin S8x8x1024x1.rank)
  bcast_S8x8x1024x1_S8x8x1024x1024_0_1_2_3 : S8x8x1024x1.BroadcastsInDim S8x8x1024x1024 (![0, 1, 2, 3] : Fin 4 → Fin S8x8x1024x1024.rank)
  transposes_S8x8x1024x64_S8x8x64x1024_0_1_3_2 : S8x8x1024x64.Transposes [0, 1, 3, 2] S8x8x64x1024
  shapeCasts_S8x8x64x1024_S8x8x1024x64 : S8x8x64x1024.ShapeCasts S8x8x1024x64
  dot_S8x8x1024x64_S64x64_S8x8x1024x64_3_1_012_0_n_n_wf : DotDims.WF S8x8x1024x64 S64x64 S8x8x1024x64 [3] [1] [0, 1, 2] [0] [] []
  dot_S8x8x1024x64_S8x8x1024x64_S8x8x1024x1024_3_3_2_2_01_01_wf : DotDims.WF S8x8x1024x64 S8x8x1024x64 S8x8x1024x1024 [3] [3] [2] [2] [0, 1] [0, 1]
  dot_S8x8x1024x1024_S8x8x1024x64_S8x8x1024x64_3_2_2_3_01_01_wf : DotDims.WF S8x8x1024x1024 S8x8x1024x64 S8x8x1024x64 [3] [2] [2] [3] [0, 1] [0, 1]

variable [Facts₀]

def dot_S8x8x1024x64_S64x64_S8x8x1024x64_3_1_012_0_n_n : DotDims S8x8x1024x64 S64x64 S8x8x1024x64 where
  lhsContracting := [3]
  rhsContracting := [1]
  lhsNonContracting := [0, 1, 2]
  rhsNonContracting := [0]
  lhsBatch := []
  rhsBatch := []
  wf := dot_S8x8x1024x64_S64x64_S8x8x1024x64_3_1_012_0_n_n_wf
def dot_S8x8x1024x64_S8x8x1024x64_S8x8x1024x1024_3_3_2_2_01_01 : DotDims S8x8x1024x64 S8x8x1024x64 S8x8x1024x1024 where
  lhsContracting := [3]
  rhsContracting := [3]
  lhsNonContracting := [2]
  rhsNonContracting := [2]
  lhsBatch := [0, 1]
  rhsBatch := [0, 1]
  wf := dot_S8x8x1024x64_S8x8x1024x64_S8x8x1024x1024_3_3_2_2_01_01_wf
def dot_S8x8x1024x1024_S8x8x1024x64_S8x8x1024x64_3_2_2_3_01_01 : DotDims S8x8x1024x1024 S8x8x1024x64 S8x8x1024x64 where
  lhsContracting := [3]
  rhsContracting := [2]
  lhsNonContracting := [2]
  rhsNonContracting := [3]
  lhsBatch := [0, 1]
  rhsBatch := [0, 1]
  wf := dot_S8x8x1024x1024_S8x8x1024x64_S8x8x1024x64_3_2_2_3_01_01_wf

class Facts : Prop extends Facts₀ where

variable [Facts]
-- ==== Proof.AttnSpec.lean ====
/-
  The mathematics both programs compute, stated once, over extended reals and plain coordinates.

  One head of attention on a [1024, 64] block: each of the three inputs X is first sent through a linear map with a
  bias and clipped below at zero, proj X W b (p, e) = max (∑ d, X (p, d) · W (e, d) + b e) 0 (the weight is read
  row e, column d: y = x Wᵀ + b). The scores are s (p, k) = (∑ d, Q' (p, d) · K' (k, d)) · (1/8). Each row of scores is
  turned into weights by the exponential of its distance below the row's maximum, divided by the row's sum of those
  exponentials; the output at (p, d) is the weighted sum over k of V' (k, d).

  The literal words (0, -∞, 1/8) are kept as the words the two programs print: both sides carry the same word, so its
  value is never needed. The whole-array function G applies the block function to the [1024, 64] slice of each input
  that the two leading coordinates of the index select.
-/
import Idealize.ShloMosaic.Lib.ValueIdx
import Idealize.ShloMosaic.PureOps.Ideal

noncomputable section

namespace Cert.Attn

open Idealize.ShloMosaic Idealize.ShloMosaic.ValueIdx

/-- The word of 0.0. -/
abbrev zeroW : EReal := Ideal.ofBits .f32 0x00000000#32
/-- The word of -∞. -/
abbrev negInfW : EReal := Ideal.ofBits .f32 0xFF800000#32
/-- The word of 1/8. -/
abbrev eighthW : EReal := Ideal.ofBits .f32 0x3E000000#32

/-- A linear map with a bias, clipped below at zero: row p of X against row e of W. -/
def proj (X : Fin 1024 → Fin 64 → EReal) (W : Fin 64 → Fin 64 → EReal) (b : Fin 64 → EReal) (p : Fin 1024) (e : Fin 64) : EReal :=
  max ((∑ d : Fin 64, X p d * W e d) + b e) zeroW

/-- The scaled score of query row p against key row k. -/
def score (Qf Kf : Fin 1024 → Fin 64 → EReal) (p k : Fin 1024) : EReal :=
  (∑ d : Fin 64, Qf p d * Kf k d) * eighthW

/-- The maximum of a row, folded from -∞ (and once more against -∞, as both programs do). -/
def rowMax (f : Fin 1024 → EReal) : EReal :=
  max negInfW ((Finset.univ : Finset (Fin 1024)).fold max negInfW f)

/-- The exponential of a score's distance below its row's maximum. -/
def expo (S : Fin 1024 → Fin 1024 → EReal) (p k : Fin 1024) : EReal :=
  Ideal.exp (S p k - rowMax (S p))

/-- The weight of key k for query p: the exponential over the row's sum of exponentials. -/
def weight (S : Fin 1024 → Fin 1024 → EReal) (p k : Fin 1024) : EReal :=
  Ideal.div (expo S p k) (∑ k' : Fin 1024, expo S p k')

/-- One head: the weighted sum of the projected values. -/
def head (Q K V : Fin 1024 → Fin 64 → EReal) (Wq Wk Wv : Fin 64 → Fin 64 → EReal) (bq bk bv : Fin 64 → EReal)
    (p : Fin 1024) (d : Fin 64) : EReal :=
  ∑ k : Fin 1024, weight (score (proj Q Wq bq) (proj K Wk bk)) p k * proj V Wv bv k d

/-- The [8, 8, 1024, 64] array of all heads: at (b, h, p, d), head (b, h) of the three inputs at (p, d). -/
def G (x0 x1 x2 : (⟨4, ![8, 8, 1024, 64]⟩ : Shape).Idx → EReal)
    (w0 : (⟨2, ![64, 64]⟩ : Shape).Idx → EReal) (b0 : (⟨1, ![64]⟩ : Shape).Idx → EReal)
    (w1 : (⟨2, ![64, 64]⟩ : Shape).Idx → EReal) (b1 : (⟨1, ![64]⟩ : Shape).Idx → EReal)
    (w2 : (⟨2, ![64, 64]⟩ : Shape).Idx → EReal) (b2 : (⟨1, ![64]⟩ : Shape).Idx → EReal) :
    (⟨4, ![8, 8, 1024, 64]⟩ : Shape).Idx → EReal := fun i =>
  head (fun p d => x0 (ix4 (i 0 : Fin 8) (i 1 : Fin 8) p d)) (fun p d => x1 (ix4 (i 0 : Fin 8) (i 1 : Fin 8) p d))
    (fun p d => x2 (ix4 (i 0 : Fin 8) (i 1 : Fin 8) p d))
    (fun e d => w0 (ix2 e d)) (fun e d => w1 (ix2 e d)) (fun e d => w2 (ix2 e d))
    (fun e => b0 (ix1 e)) (fun e => b1 (ix1 e)) (fun e => b2 (ix1 e)) (i 2 : Fin 1024) (i 3 : Fin 64)

/-- G at an index given by coordinates. -/
theorem G_ix4 (x0 x1 x2 : (⟨4, ![8, 8, 1024, 64]⟩ : Shape).Idx → EReal)
    (w0 : (⟨2, ![64, 64]⟩ : Shape).Idx → EReal) (b0 : (⟨1, ![64]⟩ : Shape).Idx → EReal)
    (w1 : (⟨2, ![64, 64]⟩ : Shape).Idx → EReal) (b1 : (⟨1, ![64]⟩ : Shape).Idx → EReal)
    (w2 : (⟨2, ![64, 64]⟩ : Shape).Idx → EReal) (b2 : (⟨1, ![64]⟩ : Shape).Idx → EReal)
    (b : Fin 8) (h : Fin 8) (p : Fin 1024) (d : Fin 64) :
    G x0 x1 x2 w0 b0 w1 b1 w2 b2 (ix4 b h p d)
      = head (fun p d => x0 (ix4 b h p d)) (fun p d => x1 (ix4 b h p d)) (fun p d => x2 (ix4 b h p d))
          (fun e d => w0 (ix2 e d)) (fun e d => w1 (ix2 e d)) (fun e d => w2 (ix2 e d))
          (fun e => b0 (ix1 e)) (fun e => b1 (ix1 e)) (fun e => b2 (ix1 e)) p d := rfl

/-- head depends only on the values of its arguments. -/
theorem head_congr {Q Q' K K' V V' : Fin 1024 → Fin 64 → EReal} {Wq Wq' Wk Wk' Wv Wv' : Fin 64 → Fin 64 → EReal}
    {bq bq' bk bk' bv bv' : Fin 64 → EReal} {p p' : Fin 1024} {d d' : Fin 64}
    (hQ : ∀ p d, Q p d = Q' p d) (hK : ∀ p d, K p d = K' p d) (hV : ∀ p d, V p d = V' p d)
    (hWq : ∀ e d, Wq e d = Wq' e d) (hWk : ∀ e d, Wk e d = Wk' e d) (hWv : ∀ e d, Wv e d = Wv' e d)
    (hbq : ∀ e, bq e = bq' e) (hbk : ∀ e, bk e = bk' e) (hbv : ∀ e, bv e = bv' e) (hp : p = p') (hd : d = d') :
    head Q K V Wq Wk Wv bq bk bv p d = head Q' K' V' Wq' Wk' Wv' bq' bk' bv' p' d' := by
  obtain rfl : Q = Q' := funext fun p => funext fun d => hQ p d
  obtain rfl : K = K' := funext fun p => funext fun d => hK p d
  obtain rfl : V = V' := funext fun p => funext fun d => hV p d
  obtain rfl : Wq = Wq' := funext fun p => funext fun d => hWq p d
  obtain rfl : Wk = Wk' := funext fun p => funext fun d => hWk p d
  obtain rfl : Wv = Wv' := funext fun p => funext fun d => hWv p d
  obtain rfl : bq = bq' := funext hbq
  obtain rfl : bk = bk' := funext hbk
  obtain rfl : bv = bv' := funext hbv
  subst hp hd
  rfl

/-- What both programs do with the array of heads A before returning: swap its two last axes, read the result in
    row-major order as an [8, 8, 1024, 64] array again, and add the queries. It is carried as one function, never opened:
    the two programs agree on A, hence on this. -/
def tail (A q : (⟨4, ![8, 8, 1024, 64]⟩ : Shape).Idx → EReal) : (⟨4, ![8, 8, 1024, 64]⟩ : Shape).Idx → EReal :=
  addf (F := Ideal) (φ := .f32)
    (shapeCast ⟨4, ![8, 8, 1024, 64]⟩
      (transpose (⟨4, ![8, 8, 64, 1024]⟩ : Shape) [0, 1, 3, 2] A (by decide)) (by decide)) q

end Cert.Attn

end
-- ==== Proof.RefHead.lean ====
/-
  The reference's attention stage, read index by index, is the block function of AttnSpec applied head by head.

  Going outwards: each projection (a product with the weight contracted on the weight's second axis, the bias broadcast
  along the last axis, the maximum with zero) is proj; the batched product of the projected queries and keys times 1/8
  is score; the row maximum (a fold of max from -∞ over the last axis, then once more against -∞) is rowMax; the
  exponential of the difference, the row sum from zero, the quotient, and the batched product with the projected values
  give head. Nothing is used of the extended reals beyond 0 + x = x for the sum's start value.
-/
import proofs.«150124_j47923245089231_1_alg».proof.Proof.Gen.ReferenceIdeal.Read
import proofs.«150124_j47923245089231_1_alg».proof.Proof.AttnSpec
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- The three kinds of argument array: an [8, 8, 1024, 64] input, a [64, 64] weight, a [64] bias. -/
abbrev A4 : Type := (⟨S8x8x1024x64, .f32⟩ : BufTy).Contents (Elt Ideal)
abbrev W2 : Type := (⟨S64x64, .f32⟩ : BufTy).Contents (Elt Ideal)
abbrev B1 : Type := (⟨S64, .f32⟩ : BufTy).Contents (Elt Ideal)

/-- Two rank-4 indices with the same four coordinates are equal. -/
local macro "coords4" : tactic =>
  `(tactic| exact funext fun a => Fin.ext (by match a with | ⟨0, _⟩ => rfl | ⟨1, _⟩ => rfl | ⟨2, _⟩ => rfl | ⟨3, _⟩ => rfl))
local macro "coords3" : tactic =>
  `(tactic| exact funext fun a => Fin.ext (by match a with | ⟨0, _⟩ => rfl | ⟨1, _⟩ => rfl | ⟨2, _⟩ => rfl))
local macro "coords2" : tactic =>
  `(tactic| exact funext fun a => Fin.ext (by match a with | ⟨0, _⟩ => rfl | ⟨1, _⟩ => rfl))
local macro "coords1" : tactic =>
  `(tactic| exact funext fun a => Fin.ext (by match a with | ⟨0, _⟩ => rfl))

/-! ## The three projections -/

/-- The projected queries at (b, h, p, e). -/
theorem projQ (x0 : A4) (x3 : W2) (x4 : B1) (b h : Fin 8) (p : Fin 1024) (e : Fin 64) :
    val_main_v4 (F := Ideal) x0 x3 x4 (ix4 b h p e)
      = Attn.proj (fun p d => x0 (ix4 b h p d)) (fun e d => x3 (ix2 e d)) (fun e => x4 (ix1 e)) p e := by
  rw [val_main_v4_apply, val_main_v3_apply, val_main_v0_apply, val_main_v2_apply, val_main_v1_apply,
    val_main_call0_v0_apply, val_main_call0_cst_apply]
  show max ((∑ k : Fin 64, x0 (lidx_main_v0 (ix4 b h p e) k) * x3 (ridx_main_v0 (ix4 b h p e) k))
      + x4 (idx_main_v1 (idx_main_v2 (ix4 b h p e)))) Attn.zeroW = _
  unfold Attn.proj
  refine congrArg₂ max (congrArg₂ (· + ·) (Finset.sum_congr rfl fun k _ => congrArg₂ (· * ·) (congrArg x0 ?_) (congrArg x3 ?_)) (congrArg x4 ?_)) rfl
  · coords4
  · coords2
  · coords1

/-- The projected keys at (b, h, p, e). -/
theorem projK (x1 : A4) (x5 : W2) (x6 : B1) (b h : Fin 8) (p : Fin 1024) (e : Fin 64) :
    val_main_v9 (F := Ideal) x1 x5 x6 (ix4 b h p e)
      = Attn.proj (fun p d => x1 (ix4 b h p d)) (fun e d => x5 (ix2 e d)) (fun e => x6 (ix1 e)) p e := by
  rw [val_main_v9_apply, val_main_v8_apply, val_main_v5_apply, val_main_v7_apply, val_main_v6_apply,
    val_main_call1_v0_apply, val_main_call1_cst_apply]
  show max ((∑ k : Fin 64, x1 (lidx_main_v5 (ix4 b h p e) k) * x5 (ridx_main_v5 (ix4 b h p e) k))
      + x6 (idx_main_v6 (idx_main_v7 (ix4 b h p e)))) Attn.zeroW = _
  unfold Attn.proj
  refine congrArg₂ max (congrArg₂ (· + ·) (Finset.sum_congr rfl fun k _ => congrArg₂ (· * ·) (congrArg x1 ?_) (congrArg x5 ?_)) (congrArg x6 ?_)) rfl
  · coords4
  · coords2
  · coords1

/-- The projected values at (b, h, p, e). -/
theorem projV (x2 : A4) (x7 : W2) (x8 : B1) (b h : Fin 8) (p : Fin 1024) (e : Fin 64) :
    val_main_v14 (F := Ideal) x2 x7 x8 (ix4 b h p e)
      = Attn.proj (fun p d => x2 (ix4 b h p d)) (fun e d => x7 (ix2 e d)) (fun e => x8 (ix1 e)) p e := by
  rw [val_main_v14_apply, val_main_v13_apply, val_main_v10_apply, val_main_v12_apply, val_main_v11_apply,
    val_main_call2_v0_apply, val_main_call2_cst_apply]
  show max ((∑ k : Fin 64, x2 (lidx_main_v10 (ix4 b h p e) k) * x7 (ridx_main_v10 (ix4 b h p e) k))
      + x8 (idx_main_v11 (idx_main_v12 (ix4 b h p e)))) Attn.zeroW = _
  unfold Attn.proj
  refine congrArg₂ max (congrArg₂ (· + ·) (Finset.sum_congr rfl fun k _ => congrArg₂ (· * ·) (congrArg x2 ?_) (congrArg x7 ?_)) (congrArg x8 ?_)) rfl
  · coords4
  · coords2
  · coords1

/-! ## Scores, the row maximum, the weights -/

section
variable (x0 x1 : A4) (x3 : W2) (x4 : B1) (x5 : W2) (x6 : B1)

/-- The scores of head (b, h), as the specification states them. -/
abbrev S (b h : Fin 8) : Fin 1024 → Fin 1024 → EReal :=
  Attn.score (Attn.proj (fun p d => x0 (ix4 b h p d)) (fun e d => x3 (ix2 e d)) (fun e => x4 (ix1 e)))
    (Attn.proj (fun p d => x1 (ix4 b h p d)) (fun e d => x5 (ix2 e d)) (fun e => x6 (ix1 e)))

/-- The scaled scores at (b, h, p, k). -/
theorem score_ref (b h : Fin 8) (p k : Fin 1024) :
    val_main_v17 (F := Ideal) x0 x1 x3 x4 x5 x6 (ix4 b h p k) = S x0 x1 x3 x4 x5 x6 b h p k := by
  rw [val_main_v17_apply, val_main_v15_apply, val_main_v16_apply, val_main_cst_apply]
  show (∑ d : Fin 64, val_main_v4 (F := Ideal) x0 x3 x4 (lidx_main_v15 (ix4 b h p k) d)
      * val_main_v9 (F := Ideal) x1 x5 x6 (ridx_main_v15 (ix4 b h p k) d)) * Attn.eighthW = _
  unfold S Attn.score
  refine congrArg (· * Attn.eighthW) (Finset.sum_congr rfl fun d _ => ?_)
  rw [← projQ x0 x3 x4 b h p d, ← projK x1 x5 x6 b h k d]
  refine congrArg₂ (· * ·) (congrArg _ ?_) (congrArg _ ?_)
  · coords4
  · coords4

/-- The row maximum at (b, h, p). -/
theorem rowMax_ref (b h : Fin 8) (p : Fin 1024) :
    val_main_v20 (F := Ideal) x0 x1 x3 x4 x5 x6 (ix3 b h p) = Attn.rowMax (S x0 x1 x3 x4 x5 x6 b h p) := by
  rw [val_main_v20_apply, val_main_v19_apply, val_main_cst_1_apply]
  have hS : S x0 x1 x3 x4 x5 x6 b h p = fun k => val_main_v17 (F := Ideal) x0 x1 x3 x4 x5 x6 (ix4 b h p k) :=
    funext fun k => (score_ref x0 x1 x3 x4 x5 x6 b h p k).symm
  rw [hS]
  unfold val_main_v18 Attn.rowMax
  generalize val_main_v17 (F := Ideal) x0 x1 x3 x4 x5 x6 = y
  show max Attn.negInfW (Host.reduce (FloatOps.maximumf (F := Ideal) (φ := .f32)) y _ reducesTo_S8x8x1024x1024_S8x8x1024_d3 h_S_ (ix3 b h p))
    = max Attn.negInfW _
  refine congrArg (max Attn.negInfW) ?_
  refine (Host.reduce_eq_fold_single (FloatOps.maximumf (F := Ideal) (φ := .f32)) y _ reducesTo_S8x8x1024x1024_S8x8x1024_d3
    (by decide) h_S_ (ix3 b h p)).trans ?_
  show (Finset.univ : Finset (Fin 1024)).fold max Attn.negInfW
      (fun k => y (Shape.Reduces.lift (s := S8x8x1024x1024) (t := S8x8x1024) (a := 3) (by decide) (ix3 b h p) k)) = _
  refine congrArg ((Finset.univ : Finset (Fin 1024)).fold max Attn.negInfW) (funext fun k => congrArg y ?_)
  coords4

/-- The exponentials at (b, h, p, k). -/
theorem expo_ref (b h : Fin 8) (p k : Fin 1024) :
    val_main_v24 (F := Ideal) x0 x1 x3 x4 x5 x6 (ix4 b h p k) = Attn.expo (S x0 x1 x3 x4 x5 x6 b h) p k := by
  rw [val_main_v24_apply, val_main_v23_apply, val_main_v22_apply, val_main_v21_apply]
  show Ideal.exp (val_main_v17 (F := Ideal) x0 x1 x3 x4 x5 x6 (ix4 b h p k)
      - val_main_v20 (F := Ideal) x0 x1 x3 x4 x5 x6 (idx_main_v21 (idx_main_v22 (ix4 b h p k)))) = _
  have e : idx_main_v21 (idx_main_v22 (ix4 b h p k)) = ix3 b h p := by coords3
  rw [e, score_ref, rowMax_ref]
  rfl

/-- The weights at (b, h, p, k). -/
theorem weight_ref (b h : Fin 8) (p k : Fin 1024) :
    val_main_v28 (F := Ideal) x0 x1 x3 x4 x5 x6 (ix4 b h p k) = Attn.weight (S x0 x1 x3 x4 x5 x6 b h) p k := by
  rw [val_main_v28_apply, val_main_v27_apply, val_main_v26_apply, val_main_v25_apply, val_main_cst_2_apply]
  show Ideal.div (val_main_v24 (F := Ideal) x0 x1 x3 x4 x5 x6 (ix4 b h p k))
      (Ideal.ofBits .f32 0x00000000#32 + ∑ k' : Fin 1024,
        val_main_v24 (F := Ideal) x0 x1 x3 x4 x5 x6 (idx_main_v25 (idx_main_v26 (idx_main_v27 (ix4 b h p k))) k')) = _
  rw [Ideal.ofBits_zero_f32, zero_add, expo_ref]
  unfold Attn.weight
  refine congrArg (Ideal.div _) (Finset.sum_congr rfl fun k' _ => ?_)
  rw [← expo_ref x0 x1 x3 x4 x5 x6 b h p k']
  refine congrArg _ ?_
  coords4

end

/-! ## The attention stage -/

/-- THE REFERENCE'S ATTENTION STAGE IS G. -/
theorem attn_eq (x0 x1 x2 : A4) (x3 : W2) (x4 : B1) (x5 : W2) (x6 : B1) (x7 : W2) (x8 : B1) :
    val_main_v29 (F := Ideal) x0 x1 x2 x3 x4 x5 x6 x7 x8 = Attn.G x0 x1 x2 x3 x4 x5 x6 x7 x8 := by
  funext i
  obtain ⟨b, h, p, d, rfl⟩ : ∃ (b h : Fin 8) (p : Fin 1024) (d : Fin 64), i = ix4 b h p d := ⟨i 0, i 1, i 2, i 3, eq_ix4 i⟩
  rw [Attn.G_ix4, val_main_v29_apply]
  unfold Attn.head
  refine Finset.sum_congr rfl fun k _ => ?_
  rw [← weight_ref x0 x1 x3 x4 x5 x6 b h p k, ← projV x2 x7 x8 b h k d]
  refine congrArg₂ (· * ·) (congrArg _ ?_) (congrArg _ ?_)
  · coords4
  · coords4

/-- THE REFERENCE'S RESULT is the shared tail of G and the queries: its last three lines are the tail, by unfolding. -/
theorem result_eq (x0 x1 x2 : A4) (x3 : W2) (x4 : B1) (x5 : W2) (x6 : B1) (x7 : W2) (x8 : B1) :
    val_main_v32 (F := Ideal) x0 x1 x2 x3 x4 x5 x6 x7 x8 = Attn.tail (Attn.G x0 x1 x2 x3 x4 x5 x6 x7 x8) x0 :=
  (show val_main_v32 (F := Ideal) x0 x1 x2 x3 x4 x5 x6 x7 x8
      = Attn.tail (val_main_v29 (F := Ideal) x0 x1 x2 x3 x4 x5 x6 x7 x8) x0 from rfl).trans
    (congrArg (fun A => Attn.tail A x0) (attn_eq x0 x1 x2 x3 x4 x5 x6 x7 x8))

end Cert.ReferenceIdeal.RefValue

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibAxisMax.lean ====
/-
  The maximum of a matrix along its second axis, read at an index. Independent of any program.

  A float max-reduction of an [a, b] matrix over axis 1 leaves an [a] vector whose entry p is the fold of max, started
  from the accumulator's value, over k : Fin b of the matrix at (p, k) — a row maximum. The host's reduce with a maximum
  body over the LAST axis of an array of any rank is read the same way by the library's single-axis law; this file gives
  the kernel's side at coordinates.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW MAXIMA: a max-reduction of an [a, b] matrix over axis 1, at row p, is the fold of max from the accumulator's value
    over k of the matrix at (p, k). -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg ((Finset.univ : Finset (Fin b)).fold max (Ideal.ofBits φ acc)) (funext fun k => congrArg src (funext fun c => Fin.ext ?_))
  match c with
  | ⟨0, _⟩ => rfl
  | ⟨1, _⟩ => rfl

end Cert.Lib

end
-- ==== Proof.KernelBlock.lean ====
/-
  What one grid point of the kernel stores, read index by index: the block function of AttnSpec on the point's blocks.

  The stored value is cut into the pieces its mathematics has — the scaled scores, the row maximum, the exponentials,
  the weights, the projected values — each a term of its own, and the printed payload is those terms composed (by
  unfolding). Each piece is then read at an index: a product of an [M, K] by a [K, N] matrix into zero is the sum over k;
  the transposed keys turn that sum into rows against rows; a [1024] vector cast to a column and broadcast along the
  rows reads the vector at the row; a bias cast to a row and broadcast down the rows reads the bias at the column; a
  change of float format is the identity. The weights reach the kernel already transposed ([d, e] instead of [e, d]),
  so the specification's W (e, d) is the kernel's operand at (d, e).
-/
import proofs.«150124_j47923245089231_1_alg».proof.Proof.Gen.KernelIdeal.Skeleton
import proofs.«150124_j47923245089231_1_alg».proof.Proof.AttnSpec
import proofs.«150124_j47923245089231_1_alg».proof.Proof.LibPlainDot
import proofs.«150124_j47923245089231_1_alg».proof.Proof.LibColumnBroadcast
import proofs.«150124_j47923245089231_1_alg».proof.Proof.LibColumnCast
import proofs.«150124_j47923245089231_1_alg».proof.Proof.LibAxisSums
import proofs.«150124_j47923245089231_1_alg».proof.Proof.LibAxisMax
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-! ## The block's leading unit axes -/

/-- A [1, 1, 1024, 64] block viewed as [1024, 64] reads, at (p, d), the block at (0, 0, p, d). -/
theorem cast_in (x : Vec Ideal S1x1x1024x64 .f32) (h : S1x1x1024x64.ShapeCasts S1024x64) (p : Fin 1024) (d : Fin 64) :
    shapeCast S1024x64 x h (ix2 p d) = x (ix4 (0 : Fin 1) (0 : Fin 1) p d) :=
  shapeCast_apply x h _ _ (by
    rw [Shape.rowMajor_val_four, Shape.rowMajor_val_two]
    show ((0 * 1 + 0) * 1024 + p.val) * 64 + d.val = p.val * 64 + d.val
    omega)

/-- A [1024, 64] result stored as a [1, 1, 1024, 64] block reads, at (u, v, p, d), the result at (p, d). -/
theorem cast_out (y : FVec Ideal S1024x64 .f32) (h : S1024x64.ShapeCasts S1x1x1024x64) (u v : Fin 1) (p : Fin 1024) (d : Fin 64) :
    shapeCast S1x1x1024x64 y h (ix4 u v p d) = y (ix2 p d) :=
  shapeCast_apply y h _ _ (by
    have hu : u.val = 0 := by omega
    have hv : v.val = 0 := by omega
    rw [Shape.rowMajor_val_four, Shape.rowMajor_val_two]
    show p.val * 64 + d.val = ((u.val * 1 + v.val) * 1024 + p.val) * 64 + d.val
    rw [hu, hv]; omega)

/-! ## The projections -/

/-- The projected queries of the block: proj of the block, the transposed weight read back, the bias. -/
theorem pay2_apply (v0 : Vec Ideal S1x1x1024x64 .f32) (v9 : Vec Ideal S64x64 .f32) (v19 : Vec Ideal S64 .f32) (p : Fin 1024) (e : Fin 64) :
    k0_pay2 (F := Ideal) v0 v9 v19 (ix2 p e)
      = Attn.proj (fun p d => v0 (ix4 (0 : Fin 1) (0 : Fin 1) p d)) (fun e d => v9 (ix2 d e)) (fun e => v19 (ix1 e)) p e := by
  unfold k0_pay2 Attn.proj
  show max (_ + _) Attn.zeroW = max (_ + _) Attn.zeroW
  refine congrArg₂ max (congrArg₂ (· + ·) ?_ ?_) rfl
  · refine (Cert.Lib.matmul_zero_apply dot_S1024x64_S64x64_S1024x64_1_0_0_1_n_n_wf none _ _ p e).trans
      (Finset.sum_congr rfl fun d _ => congrArg₂ (· * ·) ?_ ?_)
    · exact cast_in v0 _ p d
    · exact congrFun (shapeCast_self v9 _) (ix2 d e)
  · exact (broadcastTo_1b_ab_apply _ _ p e).trans (shapeCast_a_1a_apply v19 _ 0 e)

/-- The projected keys of the block. -/
theorem pay3_apply (v2 : Vec Ideal S1x1x1024x64 .f32) (v12 : Vec Ideal S64x64 .f32) (v26 : Vec Ideal S64 .f32) (p : Fin 1024) (e : Fin 64) :
    k0_pay3 (F := Ideal) v2 v12 v26 (ix2 p e)
      = Attn.proj (fun p d => v2 (ix4 (0 : Fin 1) (0 : Fin 1) p d)) (fun e d => v12 (ix2 d e)) (fun e => v26 (ix1 e)) p e := by
  unfold k0_pay3 Attn.proj
  show max (_ + _) Attn.zeroW = max (_ + _) Attn.zeroW
  refine congrArg₂ max (congrArg₂ (· + ·) ?_ ?_) rfl
  · refine (Cert.Lib.matmul_zero_apply dot_S1024x64_S64x64_S1024x64_1_0_0_1_n_n_wf none _ _ p e).trans
      (Finset.sum_congr rfl fun d _ => congrArg₂ (· * ·) ?_ ?_)
    · exact cast_in v2 _ p d
    · exact congrFun (shapeCast_self v12 _) (ix2 d e)
  · exact (broadcastTo_1b_ab_apply _ _ p e).trans (shapeCast_a_1a_apply v26 _ 0 e)

/-- The values of the block against their weight, before the bias. -/
theorem pay4_apply (v4 : Vec Ideal S1x1x1024x64 .f32) (v15 : Vec Ideal S64x64 .f32) (p : Fin 1024) (e : Fin 64) :
    k0_pay4 (F := Ideal) v4 v15 (ix2 p e) = ∑ d : Fin 64, v4 (ix4 (0 : Fin 1) (0 : Fin 1) p d) * v15 (ix2 d e) := by
  unfold k0_pay4
  refine (Cert.Lib.matmul_zero_apply dot_S1024x64_S64x64_S1024x64_1_0_0_1_n_n_wf none _ _ p e).trans
    (Finset.sum_congr rfl fun d _ => congrArg₂ (· * ·) ?_ ?_)
  · exact cast_in v4 _ p d
  · exact congrFun (shapeCast_self v15 _) (ix2 d e)

/-! ## The pieces of the stored value -/

/-- The scaled scores: the projected queries against the transposed projected keys, times 1/8. -/
def scoresBlk (v24 v31 : FVec Ideal S1024x64 .f32) : FVec Ideal S1024x1024 .f32 :=
  mulf (matmul dot_S1024x64_S64x1024_S1024x1024_1_0_0_1_n_n none (truncf .bf16 v24 bitsLt_bf16_f32)
      (transpose S64x1024 [1, 0] (truncf .bf16 v31 bitsLt_bf16_f32) transposes_S1024x64_p1_0_S64x1024)
      (constant S1024x1024 .f32 0x00000000#32))
    (broadcast S1024x1024 (Scalar.ofBits .f32 0x3E000000#32))

/-- The row maxima of a score matrix. -/
def rowMaxBlk (s : FVec Ideal S1024x1024 .f32) : FVec Ideal S1024 .f32 :=
  maximumf (broadcast S1024 (Scalar.ofBits .f32 0xFF800000#32))
    (multiReduction .maximumf [1] S1024 s 0xFF800000#32 reduces_S1024x1024_S1024 (.inl rfl) rfl)

/-- The exponentials of the scores' distances below their row maxima. -/
def expBlk (s : FVec Ideal S1024x1024 .f32) : FVec Ideal S1024x1024 .f32 :=
  exp (subf s (broadcastTo S1024x1024 (shapeCast S1024x1 (rowMaxBlk s) shapeCasts_S1024_S1024x1) broadcasts_S1024x1_S1024x1024))

/-- The weights: the exponentials over their row sums. -/
def weightBlk (s : FVec Ideal S1024x1024 .f32) : FVec Ideal S1024x1024 .f32 :=
  divf (expBlk s) (broadcastTo S1024x1024
    (shapeCast S1024x1 (multiReduction .add [1] S1024 (expBlk s) 0x00000000#32 reduces_S1024x1024_S1024 (.inl rfl) rfl) shapeCasts_S1024_S1024x1)
    broadcasts_S1024x1_S1024x1024)

/-- The projected values: the product plus the bias, clipped below at zero. -/
def valBlk (v32 : FVec Ideal S1024x64 .f32) (v33 : Vec Ideal S64 .f32) : FVec Ideal S1024x64 .f32 :=
  maximumf (addf v32 (broadcastTo S1024x64 (shapeCast S1x64 v33 shapeCasts_S64_S1x64) broadcasts_S1x64_S1024x64))
    (broadcast S1024x64 (Scalar.ofBits .f32 0x00000000#32))

/-- The stored value is those pieces composed: the weights against the projected values, as a [1, 1, 1024, 64] block. -/
theorem pay1_split (v24 v31 v32 : FVec Ideal S1024x64 .f32) (v33 : Vec Ideal S64 .f32) :
    k0_pay1 (F := Ideal) v24 v31 v32 v33
      = shapeCast S1x1x1024x64 (matmul dot_S1024x1024_S1024x64_S1024x64_1_0_0_1_n_n none
          (truncf .bf16 (weightBlk (scoresBlk v24 v31)) bitsLt_bf16_f32) (truncf .bf16 (valBlk v32 v33) bitsLt_bf16_f32)
          (constant S1024x64 .f32 0x00000000#32)) shapeCasts_S1024x64_S1x1x1024x64 := rfl

/-! ## Each piece at an index -/

/-- The scaled scores at (p, k): row p of the queries against row k of the keys, times 1/8. -/
theorem scoresBlk_apply (v24 v31 : FVec Ideal S1024x64 .f32) (p k : Fin 1024) :
    scoresBlk v24 v31 (ix2 p k) = Attn.score (fun p d => v24 (ix2 p d)) (fun k d => v31 (ix2 k d)) p k := by
  unfold scoresBlk Attn.score
  show _ * Attn.eighthW = _ * Attn.eighthW
  refine congrArg (· * Attn.eighthW) ?_
  refine (Cert.Lib.matmul_zero_apply dot_S1024x64_S64x1024_S1024x1024_1_0_0_1_n_n_wf none _ _ p k).trans
    (Finset.sum_congr rfl fun d _ => congrArg₂ (· * ·) rfl ?_)
  exact transpose_ix2_apply _ _ d k

/-- The row maximum at p. -/
theorem rowMaxBlk_apply (s : FVec Ideal S1024x1024 .f32) (p : Fin 1024) :
    rowMaxBlk s (ix1 p) = Attn.rowMax (fun k => s (ix2 p k)) := by
  unfold rowMaxBlk Attn.rowMax
  rw [maximumf_apply, broadcast_apply]
  refine congrArg₂ max rfl ?_
  exact Cert.Lib.rowMax_apply s _ _ _ _ p

/-- The exponential at (p, k). -/
theorem expBlk_apply (s : FVec Ideal S1024x1024 .f32) (p k : Fin 1024) :
    expBlk s (ix2 p k) = Attn.expo (fun p k => s (ix2 p k)) p k := by
  unfold expBlk Attn.expo
  show Ideal.exp (s (ix2 p k) - _) = Ideal.exp (s (ix2 p k) - _)
  refine congrArg (fun z => Ideal.exp (s (ix2 p k) - z)) ?_
  exact (Cert.Lib.broadcastTo_a1_ab_apply _ _ p k).trans
    ((Cert.Lib.shapeCast_a_a1_apply _ _ p 0).trans (rowMaxBlk_apply s p))

/-- The weight at (p, k). -/
theorem weightBlk_apply (s : FVec Ideal S1024x1024 .f32) (p k : Fin 1024) :
    weightBlk s (ix2 p k) = Attn.weight (fun p k => s (ix2 p k)) p k := by
  unfold weightBlk Attn.weight
  show Ideal.div (expBlk s (ix2 p k)) _ = Ideal.div _ _
  refine congrArg₂ Ideal.div (expBlk_apply s p k) ?_
  refine (Cert.Lib.broadcastTo_a1_ab_apply _ _ p k).trans ((Cert.Lib.shapeCast_a_a1_apply _ _ p 0).trans ?_)
  exact (Cert.Lib.rowSum_apply (expBlk s) _ _ _ _ p).trans (Finset.sum_congr rfl fun k' _ => expBlk_apply s p k')

/-- The projected value at (k, d). -/
theorem valBlk_apply (v32 : FVec Ideal S1024x64 .f32) (v33 : Vec Ideal S64 .f32) (k : Fin 1024) (d : Fin 64) :
    valBlk v32 v33 (ix2 k d) = max (v32 (ix2 k d) + v33 (ix1 d)) Attn.zeroW := by
  unfold valBlk
  show max (v32 (ix2 k d) + _) Attn.zeroW = _
  refine congrArg (fun z => max (v32 (ix2 k d) + z) Attn.zeroW) ?_
  exact (broadcastTo_1b_ab_apply _ _ k d).trans (shapeCast_a_1a_apply v33 _ 0 d)

/-- The stored value at (u, v, p, d): the weighted sum of the projected values. -/
theorem pay1_apply (v24 v31 v32 : FVec Ideal S1024x64 .f32) (v33 : Vec Ideal S64 .f32) (u v : Fin 1) (p : Fin 1024) (d : Fin 64) :
    k0_pay1 (F := Ideal) v24 v31 v32 v33 (ix4 u v p d)
      = ∑ k : Fin 1024, Attn.weight (Attn.score (fun p d => v24 (ix2 p d)) (fun k d => v31 (ix2 k d))) p k
          * max (v32 (ix2 k d) + v33 (ix1 d)) Attn.zeroW := by
  rw [pay1_split]
  refine (cast_out _ _ u v p d).trans ?_
  refine (Cert.Lib.matmul_zero_apply dot_S1024x1024_S1024x64_S1024x64_1_0_0_1_n_n_wf none _ _ p d).trans
    (Finset.sum_congr rfl fun k _ => congrArg₂ (· * ·) ?_ (valBlk_apply v32 v33 k d))
  refine (weightBlk_apply (scoresBlk v24 v31) p k).trans ?_
  exact congrArg (fun S => Attn.weight S p k) (funext fun p => funext fun k => scoresBlk_apply v24 v31 p k)

/-! ## The block -/

/-- WHAT A POINT STORES, at (u, v, p, d): one head of attention on the point's blocks. -/
theorem block_apply (x0 x1 x2 : Vec Ideal S1x1x1024x64 .f32) (w0 : Vec Ideal S64x64 .f32) (b0 : Vec Ideal S64 .f32)
    (w1 : Vec Ideal S64x64 .f32) (b1 : Vec Ideal S64 .f32) (w2 : Vec Ideal S64x64 .f32) (b2 : Vec Ideal S64 .f32)
    (u v : Fin 1) (p : Fin 1024) (d : Fin 64) :
    k0_pay1 (F := Ideal) (k0_pay2 x0 w0 b0) (k0_pay3 x1 w1 b1) (k0_pay4 x2 w2) b2 (ix4 u v p d)
      = Attn.head (fun p d => x0 (ix4 (0 : Fin 1) (0 : Fin 1) p d)) (fun p d => x1 (ix4 (0 : Fin 1) (0 : Fin 1) p d))
          (fun p d => x2 (ix4 (0 : Fin 1) (0 : Fin 1) p d))
          (fun e d => w0 (ix2 d e)) (fun e d => w1 (ix2 d e)) (fun e d => w2 (ix2 d e))
          (fun e => b0 (ix1 e)) (fun e => b1 (ix1 e)) (fun e => b2 (ix1 e)) p d := by
  rw [pay1_apply]
  unfold Attn.head
  refine Finset.sum_congr rfl fun k _ => congrArg₂ (· * ·) ?_ ?_
  · refine congrArg (fun S => Attn.weight S p k) ?_
    exact congrArg₂ Attn.score (funext fun p => funext fun d => pay2_apply x0 w0 b0 p d)
      (funext fun p => funext fun d => pay3_apply x1 w1 b1 p d)
  · unfold Attn.proj
    exact congrArg (fun z => max (z + b2 (ix1 d)) Attn.zeroW) (pay4_apply x2 w2 k d)

end Cert.KernelIdeal.BlockValue

end
-- ==== Proof.KernelArray.lean ====
/-
  From what each grid point stores to the whole array, and on to the kernel's result.

  The grid has one point per head (b, h). Point t fetches the [1, 1, 1024, 64] block (b, h) of each of the three inputs,
  the three weights (already transposed by the lines before the region) and the three biases whole, and writes back
  block (b, h) of the output. Every block it reads sits where the output's block sits, so what it writes is block (b, h)
  of ONE whole-array function: the array of all heads. The 64 blocks tile the output, so after the region the output
  array is that function. The lines after the region then apply the shared tail to it and to the queries, which the
  region left untouched.
-/
import proofs.«150124_j47923245089231_1_alg».proof.Proof.Gen.KernelIdeal.Frame
import proofs.«150124_j47923245089231_1_alg».proof.Proof.KernelBlock
import Idealize.ShloMosaic.Lib.Pipeline.Value
import Idealize.ShloMosaic.Lib.StableHlo.Run
import Idealize.ShloMosaic.Lib.ValueLayout

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What a point stores, at any index of its block -/

/-- The stored block at an index y: one head at y's last two coordinates. -/
theorem block_at (x0 x1 x2 : Vec Ideal S1x1x1024x64 .f32) (w0 : Vec Ideal S64x64 .f32) (b0 : Vec Ideal S64 .f32)
    (w1 : Vec Ideal S64x64 .f32) (b1 : Vec Ideal S64 .f32) (w2 : Vec Ideal S64x64 .f32) (b2 : Vec Ideal S64 .f32)
    (y : S1x1x1024x64.Idx) :
    k0_pay1 (F := Ideal) (k0_pay2 x0 w0 b0) (k0_pay3 x1 w1 b1) (k0_pay4 x2 w2) b2 y
      = Attn.head (fun p d => x0 (ix4 (0 : Fin 1) (0 : Fin 1) p d)) (fun p d => x1 (ix4 (0 : Fin 1) (0 : Fin 1) p d))
          (fun p d => x2 (ix4 (0 : Fin 1) (0 : Fin 1) p d))
          (fun e d => w0 (ix2 d e)) (fun e d => w1 (ix2 d e)) (fun e d => w2 (ix2 d e))
          (fun e => b0 (ix1 e)) (fun e => b1 (ix1 e)) (fun e => b2 (ix1 e)) (y 2 : Fin 1024) (y 3 : Fin 64) := by
  obtain ⟨u, v, p, d, rfl⟩ : ∃ (u v : Fin 1) (p : Fin 1024) (d : Fin 64), y = ix4 u v p d := ⟨y 0, y 1, y 2, y 3, eq_ix4 y⟩
  exact BlockValue.block_apply x0 x1 x2 w0 b0 w1 b1 w2 b2 u v p d

/-! ## The arrays as the region finds them -/

/-- The query weight as the region finds it, read back across its transposition: at (e, d) the found array at (d, e). -/
def foundWq (c : Dev nD) : S64x64.Idx → EReal := fun i => V m c main_v0 (ix2 (i 1 : Fin 64) (i 0 : Fin 64))
/-- The key weight, likewise. -/
def foundWk (c : Dev nD) : S64x64.Idx → EReal := fun i => V m c main_v1 (ix2 (i 1 : Fin 64) (i 0 : Fin 64))
/-- The value weight, likewise. -/
def foundWv (c : Dev nD) : S64x64.Idx → EReal := fun i => V m c main_v2 (ix2 (i 1 : Fin 64) (i 0 : Fin 64))

/-- The array of all heads, of the arrays as the region finds them. -/
def found (c : Dev nD) : S8x8x1024x64.Idx → EReal :=
  Attn.G (V m c main_arg0) (V m c main_arg1) (V m c main_arg2) (foundWq m c) (V m c main_arg4) (foundWk m c) (V m c main_arg6)
    (foundWv m c) (V m c main_arg8)

/-- The lines before the region transpose the query weight. -/
theorem V_main_v0 (c : Dev nD) :
    (V m c main_v0 : S64x64.Idx → EReal) = transpose S64x64 [1, 0] (m ((c : Thread nD τ).loc main_arg3)) transposes_S64x64_S64x64_1_0 := by
  show StableHlo.after hostOps0 (fun b => m (c, b)) (Proc.devRef .tc main_v0) = _
  after_results
/-- And the key weight. -/
theorem V_main_v1 (c : Dev nD) :
    (V m c main_v1 : S64x64.Idx → EReal) = transpose S64x64 [1, 0] (m ((c : Thread nD τ).loc main_arg5)) transposes_S64x64_S64x64_1_0 := by
  show StableHlo.after hostOps0 (fun b => m (c, b)) (Proc.devRef .tc main_v1) = _
  after_results
/-- And the value weight. -/
theorem V_main_v2 (c : Dev nD) :
    (V m c main_v2 : S64x64.Idx → EReal) = transpose S64x64 [1, 0] (m ((c : Thread nD τ).loc main_arg7)) transposes_S64x64_S64x64_1_0 := by
  show StableHlo.after hostOps0 (fun b => m (c, b)) (Proc.devRef .tc main_v2) = _
  after_results

/-- So, read back across the transposition, the found weights are the weights as launched. -/
theorem foundWq_eq (c : Dev nD) : foundWq m c = m ((c : Thread nD τ).loc main_arg3) := by
  funext i
  unfold foundWq
  rw [V_main_v0]
  exact (transpose_ix2_apply _ _ (i 1 : Fin 64) (i 0 : Fin 64)).trans (congrArg _ (eq_ix2 i).symm)
theorem foundWk_eq (c : Dev nD) : foundWk m c = m ((c : Thread nD τ).loc main_arg5) := by
  funext i
  unfold foundWk
  rw [V_main_v1]
  exact (transpose_ix2_apply _ _ (i 1 : Fin 64) (i 0 : Fin 64)).trans (congrArg _ (eq_ix2 i).symm)
theorem foundWv_eq (c : Dev nD) : foundWv m c = m ((c : Thread nD τ).loc main_arg7) := by
  funext i
  unfold foundWv
  rw [V_main_v2]
  exact (transpose_ix2_apply _ _ (i 1 : Fin 64) (i 0 : Fin 64)).trans (congrArg _ (eq_ix2 i).symm)

/-- The array of all heads, of the arrays as launched. -/
theorem found_eq (c : Dev nD) :
    found m c = Attn.G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  unfold found
  rw [foundWq_eq, foundWk_eq, foundWv_eq, V_main_arg0, V_main_arg1, V_main_arg2, V_main_arg4, V_main_arg6, V_main_arg8]

/-! ## The printed index maps, decided over the 64 points -/

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The three input windows sit on the output's block (b, h, 0, 0); the weights and biases are read whole. -/
theorem idx_facts : ∀ t : Fin cfg0.N,
    (win0_0.index t (0 : Fin 4) = win0_9.index t (0 : Fin 4) ∧ win0_0.index t (1 : Fin 4) = win0_9.index t (1 : Fin 4)
      ∧ win0_0.index t (2 : Fin 4) = 0 ∧ win0_0.index t (3 : Fin 4) = 0)
    ∧ (win0_1.index t (0 : Fin 4) = win0_9.index t (0 : Fin 4) ∧ win0_1.index t (1 : Fin 4) = win0_9.index t (1 : Fin 4)
      ∧ win0_1.index t (2 : Fin 4) = 0 ∧ win0_1.index t (3 : Fin 4) = 0)
    ∧ (win0_2.index t (0 : Fin 4) = win0_9.index t (0 : Fin 4) ∧ win0_2.index t (1 : Fin 4) = win0_9.index t (1 : Fin 4)
      ∧ win0_2.index t (2 : Fin 4) = 0 ∧ win0_2.index t (3 : Fin 4) = 0)
    ∧ (win0_9.index t (2 : Fin 4) = 0 ∧ win0_9.index t (3 : Fin 4) = 0
      ∧ win0_9.index t (0 : Fin 4) ≤ 7 ∧ win0_9.index t (1 : Fin 4) ≤ 7)
    ∧ (win0_3.index t (0 : Fin 2) = 0 ∧ win0_3.index t (1 : Fin 2) = 0 ∧ win0_5.index t (0 : Fin 2) = 0
      ∧ win0_5.index t (1 : Fin 2) = 0 ∧ win0_7.index t (0 : Fin 2) = 0 ∧ win0_7.index t (1 : Fin 2) = 0)
    ∧ (win0_4.index t (0 : Fin 1) = 0 ∧ win0_6.index t (0 : Fin 1) = 0 ∧ win0_8.index t (0 : Fin 1) = 0) :=
  (by decide +kernel : ∀ t : Fin grid0.N, _)

/-- Every block (b, h, 0, 0) of the output is some point's. -/
theorem idx_onto : ∀ (q0 : Fin 8) (q1 : Fin 8), ∃ t : Fin cfg0.N, win0_9.index t = ![q0.val, q1.val, 0, 0] :=
  (by decide +kernel : ∀ (q0 : Fin 8) (q1 : Fin 8), ∃ t : Fin grid0.N, win0_9.index t = ![q0.val, q1.val, 0, 0])

/-! ## What a point writes back -/

/-- WHAT POINT t WRITES BACK is block t of the array of all heads (of the arrays as the region finds them). -/
theorem flushed_eq (c : Dev nD) (t : Fin cfg0.N) :
    (dats m 0 c).flushed 9 t = ((cfg0.win 9).blk t).view.read (Elt Ideal) (found m c) := by
  show (cfg0.win 9).cut (grid0.coords t) ((dats m 0 c).after 9 t) = _
  rw [after0_9]
  unfold out0_9
  rw [View.canon_unit_zero hz4]
  simp only [View.ld_unit_zero (S := S1x1x1024x64) hz4, View.ld_unit_zero (S := S64x64) hz2, View.ld_unit_zero (S := S64) hz1]
  obtain ⟨⟨a0, a1, a2, a3⟩, ⟨b0, b1, b2, b3⟩, ⟨c0, c1, c2, c3⟩, ⟨o2, o3, o0, o1⟩, ⟨w30, w31, w50, w51, w70, w71⟩, ⟨v4, v6, v8⟩⟩ := idx_facts t
  funext j
  have hj0 : (j 0).val < 1 := (j 0).isLt
  have hj1 : (j 1).val < 1 := (j 1).isLt
  have hj2 : (j 2).val < 1024 := (j 2).isLt
  have hj3 : (j 3).val < 64 := (j 3).isLt
  show k0_pay1 (k0_pay2 (iblk m c 0 t) (iblk m c 3 t) (iblk m c 4 t)) (k0_pay3 (iblk m c 1 t) (iblk m c 5 t) (iblk m c 6 t))
      (k0_pay4 (iblk m c 2 t) (iblk m c 7 t)) (iblk m c 8 t) j = found m c (((cfg0.win 9).blk t).view.emb j)
  refine (block_at (iblk m c 0 t) (iblk m c 1 t) (iblk m c 2 t) (iblk m c 3 t) (iblk m c 4 t) (iblk m c 5 t) (iblk m c 6 t)
    (iblk m c 7 t) (iblk m c 8 t) j).trans ?_
  unfold found Attn.G
  refine Attn.head_congr ?_ ?_ ?_ ?_ ?_ ?_ ?_ ?_ ?_ ?_ ?_
  · intro p d
    show V m c main_arg0 (((cfg0.win 0).blk t).view.emb (ix4 (0 : Fin 1) (0 : Fin 1) p d)) = V m c main_arg0 _
    refine congrArg (V m c main_arg0) (funext fun a => Fin.ext ?_)
    match a with
    | ⟨0, _⟩ => show win0_0.index t (0 : Fin 4) * 1 + 1 * 0 = win0_9.index t (0 : Fin 4) * 1 + 1 * (j 0).val; omega
    | ⟨1, _⟩ => show win0_0.index t (1 : Fin 4) * 1 + 1 * 0 = win0_9.index t (1 : Fin 4) * 1 + 1 * (j 1).val; omega
    | ⟨2, _⟩ => show win0_0.index t (2 : Fin 4) * 1024 + 1 * p.val = p.val; omega
    | ⟨3, _⟩ => show win0_0.index t (3 : Fin 4) * 64 + 1 * d.val = d.val; omega
  · intro p d
    show V m c main_arg1 (((cfg0.win 1).blk t).view.emb (ix4 (0 : Fin 1) (0 : Fin 1) p d)) = V m c main_arg1 _
    refine congrArg (V m c main_arg1) (funext fun a => Fin.ext ?_)
    match a with
    | ⟨0, _⟩ => show win0_1.index t (0 : Fin 4) * 1 + 1 * 0 = win0_9.index t (0 : Fin 4) * 1 + 1 * (j 0).val; omega
    | ⟨1, _⟩ => show win0_1.index t (1 : Fin 4) * 1 + 1 * 0 = win0_9.index t (1 : Fin 4) * 1 + 1 * (j 1).val; omega
    | ⟨2, _⟩ => show win0_1.index t (2 : Fin 4) * 1024 + 1 * p.val = p.val; omega
    | ⟨3, _⟩ => show win0_1.index t (3 : Fin 4) * 64 + 1 * d.val = d.val; omega
  · intro p d
    show V m c main_arg2 (((cfg0.win 2).blk t).view.emb (ix4 (0 : Fin 1) (0 : Fin 1) p d)) = V m c main_arg2 _
    refine congrArg (V m c main_arg2) (funext fun a => Fin.ext ?_)
    match a with
    | ⟨0, _⟩ => show win0_2.index t (0 : Fin 4) * 1 + 1 * 0 = win0_9.index t (0 : Fin 4) * 1 + 1 * (j 0).val; omega
    | ⟨1, _⟩ => show win0_2.index t (1 : Fin 4) * 1 + 1 * 0 = win0_9.index t (1 : Fin 4) * 1 + 1 * (j 1).val; omega
    | ⟨2, _⟩ => show win0_2.index t (2 : Fin 4) * 1024 + 1 * p.val = p.val; omega
    | ⟨3, _⟩ => show win0_2.index t (3 : Fin 4) * 64 + 1 * d.val = d.val; omega
  · intro e d
    show V m c main_v0 (((cfg0.win 3).blk t).view.emb (ix2 d e)) = V m c main_v0 (ix2 d e)
    refine congrArg (V m c main_v0) (funext fun a => Fin.ext ?_)
    match a with
    | ⟨0, _⟩ => show win0_3.index t (0 : Fin 2) * 64 + 1 * d.val = d.val; omega
    | ⟨1, _⟩ => show win0_3.index t (1 : Fin 2) * 64 + 1 * e.val = e.val; omega
  · intro e d
    show V m c main_v1 (((cfg0.win 5).blk t).view.emb (ix2 d e)) = V m c main_v1 (ix2 d e)
    refine congrArg (V m c main_v1) (funext fun a => Fin.ext ?_)
    match a with
    | ⟨0, _⟩ => show win0_5.index t (0 : Fin 2) * 64 + 1 * d.val = d.val; omega
    | ⟨1, _⟩ => show win0_5.index t (1 : Fin 2) * 64 + 1 * e.val = e.val; omega
  · intro e d
    show V m c main_v2 (((cfg0.win 7).blk t).view.emb (ix2 d e)) = V m c main_v2 (ix2 d e)
    refine congrArg (V m c main_v2) (funext fun a => Fin.ext ?_)
    match a with
    | ⟨0, _⟩ => show win0_7.index t (0 : Fin 2) * 64 + 1 * d.val = d.val; omega
    | ⟨1, _⟩ => show win0_7.index t (1 : Fin 2) * 64 + 1 * e.val = e.val; omega
  · intro e
    show V m c main_arg4 (((cfg0.win 4).blk t).view.emb (ix1 e)) = V m c main_arg4 (ix1 e)
    refine congrArg (V m c main_arg4) (funext fun a => Fin.ext ?_)
    match a with
    | ⟨0, _⟩ => show win0_4.index t (0 : Fin 1) * 64 + 1 * e.val = e.val; omega
  · intro e
    show V m c main_arg6 (((cfg0.win 6).blk t).view.emb (ix1 e)) = V m c main_arg6 (ix1 e)
    refine congrArg (V m c main_arg6) (funext fun a => Fin.ext ?_)
    match a with
    | ⟨0, _⟩ => show win0_6.index t (0 : Fin 1) * 64 + 1 * e.val = e.val; omega
  · intro e
    show V m c main_arg8 (((cfg0.win 8).blk t).view.emb (ix1 e)) = V m c main_arg8 (ix1 e)
    refine congrArg (V m c main_arg8) (funext fun a => Fin.ext ?_)
    match a with
    | ⟨0, _⟩ => show win0_8.index t (0 : Fin 1) * 64 + 1 * e.val = e.val; omega
  · exact Fin.ext (by show (j 2).val = win0_9.index t (2 : Fin 4) * 1024 + 1 * (j 2).val; omega)
  · exact Fin.ext (by show (j 3).val = win0_9.index t (3 : Fin 4) * 64 + 1 * (j 3).val; omega)

/-! ## The output's blocks tile it -/

/-- An index of the output is in point t's block iff each coordinate is in the block's range on its axis. -/
theorem mem_blk (t : Fin cfg0.N) (i : S8x8x1024x64.Idx) :
    i ∈ ((cfg0.win 9).blk t).view.set ↔ ∀ a : Fin 4, win0_9.index t a * S1x1x1024x64.size a ≤ (i a).val
      ∧ (i a).val < win0_9.index t a * S1x1x1024x64.size a + S1x1x1024x64.size a := by
  show i ∈ ((View.whole main_v3).slice (win0_9.rect t)).set ↔ _
  rw [View.set_slice_whole, Rect.mem_set_unit]
  exact Iff.rfl

/-- Every index (b, h, p, d) of the output is in the block of the point whose block index is (b, h, 0, 0). -/
theorem cover (i : S8x8x1024x64.Idx) :
    ∃ t : Fin cfg0.N, (cfg0.win 9).flush t = true ∧ i ∈ ((cfg0.win 9).blk t).view.set := by
  have hi0 : (i 0).val < 8 := (i 0).isLt
  have hi1 : (i 1).val < 8 := (i 1).isLt
  have hi2 : (i 2).val < 1024 := (i 2).isLt
  have hi3 : (i 3).val < 64 := (i 3).isLt
  obtain ⟨t, ht⟩ := idx_onto ⟨(i 0).val, hi0⟩ ⟨(i 1).val, hi1⟩
  have q0 : win0_9.index t (0 : Fin 4) = (i 0).val := congrFun ht 0
  have q1 : win0_9.index t (1 : Fin 4) = (i 1).val := congrFun ht 1
  have q2 : win0_9.index t (2 : Fin 4) = 0 := congrFun ht 2
  have q3 : win0_9.index t (3 : Fin 4) = 0 := congrFun ht 3
  refine ⟨t, flush0_9 t, ?_⟩
  rw [mem_blk]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 1 ≤ (i 1).val ∧ (i 1).val < win0_9.index t (1 : Fin 4) * 1 + 1; omega
  | ⟨2, _⟩ => show win0_9.index t (2 : Fin 4) * 1024 ≤ (i 2).val ∧ (i 2).val < win0_9.index t (2 : Fin 4) * 1024 + 1024; omega
  | ⟨3, _⟩ => show win0_9.index t (3 : Fin 4) * 64 ≤ (i 3).val ∧ (i 3).val < win0_9.index t (3 : Fin 4) * 64 + 64; omega

/-- THE OUTPUT ARRAY after the region is the array of all heads. -/
theorem final (c : Dev nD) : (dats m 0 c).arrAt 9 cfg0.N = found m c :=
  (dats m 0 c).arrAt_eq_of_cover 9 (found m c) (fun t _ => flushed_eq m c t) cover

end Cert.KernelIdeal.ArrayValue

end
-- ==== Proof.KernelRun.lean ====
/-
  The kernel's run, read: its result is the shared tail of the array of all heads and the queries.

  After the region the output array holds the array of all heads and the queries' array is as launched; the three
  lines after the region (swap the last two axes, read in row-major order as [8, 8, 1024, 64], add the queries) are the
  shared tail applied to those two arrays. The arguments end unchanged.
-/
import proofs.«150124_j47923245089231_1_alg».proof.Proof.KernelArray

set_option maxRecDepth 16384

noncomputable section

namespace Cert.KernelIdeal.RunValue

open Cert.KernelIdeal Cert.KernelIdeal.Gen Cert.KernelIdeal.ArrayValue Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The lines after the region, applied to what the region leaves: the shared tail of the array of all heads and the
    queries. -/
theorem result_eq (c : Dev nD) :
    Pipeline.afterTail₀ cfgs (dats m) 0 (V0 m) [hostOps1] c main_v6
      = Attn.tail (found m c) (m ((c : Thread nD τ).loc main_arg0)) := by
  unfold Pipeline.afterTail₀
  show StableHlo.after hostOps1 _ (Proc.devRef .tc main_v6) = _
  after_results
  have h9 : Pipeline.withArrays (cfgs 0).spec c (V0 m c) (fun w => (dats m 0 c).arrAt w (cfgs 0).N) (Proc.devRef .tc main_v3)
      = found m c :=
    (Pipeline.withArrays_arr spec0 launch0.win.arr_inj c _ _ 9).trans (final m c)
  have h0 : Pipeline.withArrays (cfgs 0).spec c (V0 m c) (fun w => (dats m 0 c).arrAt w (cfgs 0).N) (Proc.devRef .tc main_arg0)
      = m ((c : Thread nD τ).loc main_arg0) :=
    (Pipeline.withArrays_arr spec0 launch0.win.arr_inj c _ _ 0).trans
      (((dats m 0 c).arrAt_in 0 rfl _).trans ((A_eq m c 0).trans (V_main_arg0 m c)))
  rw [h9, h0]
  rfl

/-- THE KERNEL'S RUN, READ: every weakly fair execution terminates with the result at the shared tail of the array of all
    heads (of the arguments as launched) and the queries, and the arguments unchanged. -/
theorem run : θ_run defs (onTc (τ := τ) (main (F := Ideal))) ⟨m, fun _ => 0, ρ⟩ fun r => ∀ c : Dev nD,
      r.2.mem ((c.tc : Thread nD τ).loc main_v6) = Attn.tail (Attn.G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨(((h c).2 main_v6 (Pipeline.mem_restRefs_of main_v6 (by decide) (by decide))).trans (result_eq m c)).trans
        (congrArg (fun A => Attn.tail A (m ((c : Thread nD τ).loc main_arg0))) (found_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c)))⟩)
    (run_main m ρ)

end Cert.KernelIdeal.RunValue

end
-- ==== Proof.lean ====
/-
  The two programs compute one function: multi-head attention with projected, clipped inputs, its output re-laid and
  added to the queries.

  The kernel runs one grid point per head; each point projects its three [1024, 64] blocks (a matrix product with the
  weight, a bias, a maximum with zero), scores the queries against the keys (scaled by 1/8), takes the softmax of each
  row of scores and averages the projected values with it. The reference does the same on whole [8, 8, 1024, 64] arrays
  with batched products. Over the extended reals, where a change of float format is the identity and every sum is
  exact, both are the same arithmetic in the same order: the specification G of AttnSpec, head by head. After that both
  programs swap the last two axes, read the result as [8, 8, 1024, 64] again and add the queries: one shared function of
  G and the queries, which is never opened.

  So: the reference's stages read index by index give G (RefHead); what a grid point stores, read index by index, is a
  block of G (KernelBlock), the blocks tile the output (KernelArray), and the lines after the region apply the shared
  tail (KernelRun). No property of the inputs is used: the finiteness precondition is never opened. The three frames are
  the generated ones (the reference's from its generated run), and the kernel's idealization rewrote nothing.
-/
import proofs.«150124_j47923245089231_1_alg».proof.Defs
import proofs.«150124_j47923245089231_1_alg».proof.Proof.Gen.Kernel
import proofs.«150124_j47923245089231_1_alg».proof.Proof.Gen.Kernel.Frame
import proofs.«150124_j47923245089231_1_alg».proof.Proof.Gen.KernelIdeal
import proofs.«150124_j47923245089231_1_alg».proof.Proof.Gen.KernelIdeal.Frame
import proofs.«150124_j47923245089231_1_alg».proof.Proof.Gen.ReferenceIdeal
import proofs.«150124_j47923245089231_1_alg».proof.Proof.Gen.ReferenceIdeal.Run
import proofs.«150124_j47923245089231_1_alg».proof.Proof.Gen.ReferenceIdeal.Read
import proofs.«150124_j47923245089231_1_alg».proof.Proof.Gen.Pre_finite_inputs
import proofs.«150124_j47923245089231_1_alg».proof.Proof.RefHead
import proofs.«150124_j47923245089231_1_alg».proof.Proof.KernelRun

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the shared tail of G of the arguments and the
    queries. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Attn.tail (Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg0)), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact Cert.ReferenceIdeal.RefValue.result_eq _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
